-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel

variable [Facts]

def fn {F : FTy → Type} [FloatOps F] (main_arg0 : FVec F S1048576x32 .f32) (main_arg1 : IVec S1048576x32 32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  main_v3
-- ==== Kernel.lean ====
abbrev S1048576x32 : Shape := ⟨2, ![1048576, 32]⟩
abbrev S32 : Shape := ⟨1, ![32]⟩
abbrev S1x32 : Shape := ⟨2, ![1, 32]⟩
abbrev S1x1 : Shape := ⟨2, ![1, 1]⟩
abbrev S16384x32 : Shape := ⟨2, ![16384, 32]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S1048576x32, .f32⟩
  | .hbm, ⟨1, _⟩ => ⟨S1048576x32, .i32⟩
  | .hbm, ⟨2, _⟩ => ⟨S32, .f32⟩
  | .hbm, ⟨3, _⟩ => ⟨S32, .f32⟩
  | .hbm, ⟨4, _⟩ => ⟨S1x32, .f32⟩
  | .hbm, ⟨5, _⟩ => ⟨S1x32, .f32⟩
  | .hbm, ⟨6, _⟩ => ⟨S1x1, .f32⟩
  | .hbm, ⟨7, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x32, .i32⟩
  | .local _ .vmem, ⟨3, _⟩ => ⟨S16384x32, .i32⟩
  | .local _ .vmem, ⟨4, _⟩ => ⟨S1x32, .f32⟩
  | .local _ .vmem, ⟨5, _⟩ => ⟨S1x32, .f32⟩
  | .local _ .vmem, ⟨6, _⟩ => ⟨S1x1, .f32⟩
  | .local _ .vmem, ⟨7, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32_S1x32 : S32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x32_S16384x32_0_0 : ∀ a, (![0, 0] : Fin 2 → Nat) a + S16384x32.size a ≤ S16384x32.size a
  h_S16384x32 : 0 < S16384x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  reduces_S16384x32_S32 : S16384x32.Reduces [0] S32
  reduces_S1x32_S1 : S1x32.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S1048576x32.size a
  hwx0_0 : ∀ i : grid0.Coords, EltTy.bits .f32 = 32 ∨ (Rect.block (s := S1048576x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S1048576x32.size a
  hwx0_1 : ∀ i : grid0.Coords, EltTy.bits .i32 = 32 ∨ (Rect.block (s := S1048576x32) S16384x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1048576x32 : Shape := ⟨2, ![1048576, 32]⟩
abbrev S32 : Shape := ⟨1, ![32]⟩
abbrev S_ : Shape := ⟨0, ![]⟩
abbrev S1x32 : Shape := ⟨2, ![1, 32]⟩

abbrev nBuf : Space → Nat
  | .hbm => 28
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .i32⟩
  | .hbm, ⟨2, _⟩ => ⟨S32, .f32⟩
  | .hbm, ⟨3, _⟩ => ⟨S32, .f32⟩
  | .hbm, ⟨4, _⟩ => ⟨S1048576x32, .f32⟩
  | .hbm, ⟨5, _⟩ => ⟨S_, .i32⟩
  | .hbm, ⟨6, _⟩ => ⟨S1048576x32, .i32⟩
  | .hbm, ⟨7, _⟩ => ⟨S1048576x32, .i1⟩
  | .hbm, ⟨8, _⟩ => ⟨S1x32, .f32⟩
  | .hbm, ⟨9, _⟩ => ⟨S1x32, .f32⟩
  | .hbm, ⟨10, _⟩ => ⟨S1048576x32, .f32⟩
  | .hbm, ⟨11, _⟩ => ⟨S1048576x32, .f32⟩
  | .hbm, ⟨12, _⟩ => ⟨S1048576x32, .f32⟩
  | .hbm, ⟨13, _⟩ => ⟨S_, .f32⟩
  | .hbm, ⟨14, _⟩ => ⟨S1048576x32, .f32⟩
  | .hbm, ⟨15, _⟩ => ⟨S1048576x32, .f32⟩
  | .hbm, ⟨16, _⟩ => ⟨S1048576x32, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S1048576x32, .f32⟩
  | .hbm, ⟨21, _⟩ => ⟨S1048576x32, .f32⟩
  | .hbm, ⟨22, _⟩ => ⟨S1048576x32, .f32⟩
  | .hbm, ⟨23, _⟩ => ⟨S1048576x32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S1048576x32 : S_.BroadcastsInDim S1048576x32 (![] : Fin 0 → Fin S1048576x32.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  reducesTo_S1048576x32_S_d0_1 : S1048576x32.ReducesTo [0, 1] S_
  h_S_ : 0 < S_.numel

variable [Facts₀]

class Facts : Prop extends Facts₀ where

variable [Facts]
-- ==== Proof.Pieces.lean ====
/-
  What one grid point leaves behind, as values.

  The kernel keeps a running total in a 1×1 scratch cell. At the first grid point it stores zero there and then adds
  the point's tile sum; at every later point it adds the point's tile sum to what the previous point left; at the
  last point it additionally stores the scaled total into the 1×1 output block. The frame run records these stores
  as covering pieces; read back, each piece is the body's arithmetic applied to the blocks the point was given:

    first point    scratch := step(blocks, zero)
    later points   scratch := step(blocks, previous scratch)
    last point     output  := scaled(step(blocks, previous scratch))

  where `step` is the payload `k0_pay3`, `zero` the payload `k0_pay2`, and `scaled` the payload `k0_pay1`.
  These hold for every float instance.
-/
import proofs.«107368_j12386685681700_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point that is not the last leaves in the scratch the step of its blocks over the previous scratch. -/
theorem scr_B (c : Dev nD) (i : grid0.Coords) (a1 : Memref sig .tc .vmem S16384x32 .f32) (h1 : a1.IsWhole) (a2 : Memref sig .tc .vmem S16384x32 .i32) (h2 : a2.IsWhole) (a3 : Memref sig .tc .vmem S1x32 .f32) (h3 : a3.IsWhole) (a4 : Memref sig .tc .vmem S1x32 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 : Vec F S16384x32 .f32) (x1 : Vec F S16384x32 .i32) (x2 : Vec F S1x32 .f32) (x3 : Vec F S1x32 .f32) (xs0 : Vec F S1x1 .f32) :
    sout0_B_0 c i a1 h1 a2 h2 a3 h3 a4 h4 a5 h5 a6 h6 hc0 hc1 x0 x1 x2 x3 xs0 = k0_pay3 x0 x1 x2 x3 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  rw [View.canon_unit_zero hz]
  simp only [View.readAt_eq_ld, h1.read_unread, h2.read_unread, h3.read_unread, h4.read_unread, h6.read_unread,
    View.ld_unit_zero (S := S16384x32) hz, View.ld_unit_zero (S := S1x32) hz, View.ld_unit_zero (S := S1x1) hz]

/-- The last point leaves in the scratch the step of its blocks over the previous scratch … -/
theorem scr_C (c : Dev nD) (i : grid0.Coords) (a1 : Memref sig .tc .vmem S16384x32 .f32) (h1 : a1.IsWhole) (a2 : Memref sig .tc .vmem S16384x32 .i32) (h2 : a2.IsWhole) (a3 : Memref sig .tc .vmem S1x32 .f32) (h3 : a3.IsWhole) (a4 : Memref sig .tc .vmem S1x32 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S16384x32 .f32) (x1 : Vec F S16384x32 .i32) (x2 : Vec F S1x32 .f32) (x3 : Vec F S1x32 .f32) (xs0 : Vec F S1x1 .f32) :
    sout0_C_0 c i a1 h1 a2 h2 a3 h3 a4 h4 a5 h5 a6 h6 hc0 hc1 x0 x1 x2 x3 xs0 = k0_pay3 x0 x1 x2 x3 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h3.read_unread, h4.read_unread, h6.read_unread,
    View.ld_unit_zero (S := S16384x32) hz, View.ld_unit_zero (S := S1x32) hz, View.ld_unit_zero (S := S1x1) hz]

/-- … and in the output block that value scaled. -/
theorem out_C (c : Dev nD) (i : grid0.Coords) (a1 : Memref sig .tc .vmem S16384x32 .f32) (h1 : a1.IsWhole) (a2 : Memref sig .tc .vmem S16384x32 .i32) (h2 : a2.IsWhole) (a3 : Memref sig .tc .vmem S1x32 .f32) (h3 : a3.IsWhole) (a4 : Memref sig .tc .vmem S1x32 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S16384x32 .f32) (x1 : Vec F S16384x32 .i32) (x2 : Vec F S1x32 .f32) (x3 : Vec F S1x32 .f32) (xs0 : Vec F S1x1 .f32) :
    out0_C_4 c i a1 h1 a2 h2 a3 h3 a4 h4 a5 h5 a6 h6 hc0 hc1 x0 x1 x2 x3 xs0 = k0_pay1 (k0_pay3 x0 x1 x2 x3 xs0) := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S16384x32) hz, View.ld_unit_zero (S := S1x32) hz, View.ld_unit_zero (S := S1x1) hz]

/-- The first point stores zero in the scratch, reads it back, and leaves the step of its blocks over zero. -/
theorem scr_A (c : Dev nD) (i : grid0.Coords) (a1 : Memref sig .tc .vmem S16384x32 .f32) (h1 : a1.IsWhole) (a2 : Memref sig .tc .vmem S16384x32 .i32) (h2 : a2.IsWhole) (a3 : Memref sig .tc .vmem S1x32 .f32) (h3 : a3.IsWhole) (a4 : Memref sig .tc .vmem S1x32 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 : Vec F S16384x32 .f32) (x1 : Vec F S16384x32 .i32) (x2 : Vec F S1x32 .f32) (x3 : Vec F S1x32 .f32) :
    sout0_A_0 c i a1 h1 a2 h2 a3 h3 a4 h4 a5 h5 a6 h6 hc0 hc1 x0 x1 x2 x3 = k0_pay3 x0 x1 x2 x3 k0_pay2 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S16384x32) hz, View.ld_unit_zero (S := S1x32) hz]

end Cert.KernelIdeal.Pieces

end
-- ==== Proof.AccumCases.lean ====
/-
  What the scratch cell and the output block hold after a grid point, case by case.

  The first point leaves the step of its blocks over zero; every later point the step of its blocks over what the
  point before left; the last point also leaves, in the output block, the scaling of the scratch cell's value.
  These hold at every float instance.
-/
import proofs.«107368_j12386685681700_2_alg».proof.Proof.Pieces

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- At the first point the scratch ends at the step of the point's blocks over zero. -/
theorem scratch_first (c : Dev nD) (t : Fin cfg0.N) (h0 : t.val % 64 = 0) (h1 : ¬t.val % 64 = 63) :
    (outsAt0 m c t.val t.isLt).2 = k0_pay3 (iblk m c 0 t) (iblk m c 1 t) (iblk m c 2 t) (iblk m c 3 t) k0_pay2 := by
  rw [outsAt0_A m c t h0 h1]
  exact Pieces.scr_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a middle point the scratch ends at the step of the point's blocks over what the point before left. -/
theorem scratch_middle (c : Dev nD) (t : Fin cfg0.N) (h0 : ¬t.val % 64 = 0) (h1 : ¬t.val % 64 = 63) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  exact Pieces.scr_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

/-- At the last point likewise, -/
theorem scratch_last (c : Dev nD) (t : Fin cfg0.N) (h0 : ¬t.val % 64 = 0) (h1 : t.val % 64 = 63) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  exact Pieces.scr_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- and the output block ends at the scaling of that same step. -/
theorem output_last (c : Dev nD) (t : Fin cfg0.N) (h0 : ¬t.val % 64 = 0) (h1 : t.val % 64 = 63) :
    (outsAt0 m c t.val t.isLt).1
      = k0_pay1 (k0_pay3 (iblk m c 0 t) (iblk m c 1 t) (iblk m c 2 t) (iblk m c 3 t) (outsAt0 m c (t.val - 1) (Nat.lt_of_le_of_lt (Nat.sub_le _ _) t.isLt)).2) := by
  rw [outsAt0_C m c t h0 h1]
  exact Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

end Cert.KernelIdeal.Accum

end
-- ==== Proof.Spec.lean ====
/-
  Weighted binary cross-entropy with logits, over the extended reals.

  For a logit `x`, an integer target `t` and two class weights, one element's loss is the weight the target selects
  (`wp` where `t = 1`, otherwise `wn`) times `max(x, 0) − x·t + log(1 + e^{−|x|})`, with `|x| = max(x, −x)` and the
  target read as a real number. The quantity both programs compute is the sum of these losses over all 1048576 rows
  and 32 classes (the weights depending on the class only), divided by the number of elements, 2²⁵.

  This module fixes that sum as one expression, rows outermost, and proves the one arithmetic fact the two programs
  differ by: dividing by 2²⁵ is multiplying by 2⁻²⁵, for every extended real.
-/
import Idealize.ShloMosaic.PureOps.Ideal
import Idealize.ShloMosaic.PureOps.Ideal.Laws
import Idealize.ShloMosaic.Lib.ValueIdx

noncomputable section

open scoped BigOperators

namespace Cert.Wbce

open Idealize.ShloMosaic Idealize.ShloMosaic.ValueIdx

/-- The shape of the logits and of the targets: 1048576 rows, 32 classes. -/
abbrev SArr : Shape := ⟨2, ![1048576, 32]⟩

/-- One element's loss: the class weight the target selects, times `max(x, 0) − x·t + log(1 + e^{−|x|})`. -/
def loss (wp wn x : EReal) (t : BitVec 32) : EReal :=
  Scalar.select (IntOp.cmpi .eq t 1#32) wp wn
    * ((max x 0 - x * ((t.toInt : ℝ) : EReal)) + Ideal.log1p (Ideal.exp (-(max x (-x)))))

/-- The sum of every element's loss, rows outermost, classes inside. -/
def total (wp wn : Fin 32 → EReal) (x : SArr.Idx → EReal) (t : SArr.Idx → BitVec 32) : EReal :=
  ∑ a : Fin 1048576, ∑ b : Fin 32, loss (wp b) (wn b) (x (ix2 a b)) (t (ix2 a b))

/-- Row `r` of tile `s`, as a row of the whole array: tiles are 16384 consecutive rows. -/
def rowOf (s : Fin 64) (r : Fin 16384) : Fin 1048576 := ⟨s.val * 16384 + r.val, by have := s.isLt; have := r.isLt; omega⟩

@[simp] theorem rowOf_val (s : Fin 64) (r : Fin 16384) : (rowOf s r).val = s.val * 16384 + r.val := rfl

end Cert.Wbce

end
-- ==== Proof.StepValue.lean ====
/-
  One grid point's arithmetic, read over the extended reals.

  The step adds to the running total the point's tile sum: the 16384 × 32 tile of weighted losses is summed down its
  rows (one sum per class) and then across its 32 classes. Read at the ideal instance this is

    step(x, t, wp, wn, prev) = prev + ∑ class b, ∑ row r, loss (wp b) (wn b) (x r b) (t r b),

  the kernel's `0 − |x|` being `−|x|` and its zero words the number zero. The zero the first point starts from is the
  number zero, and the last point's scaling multiplies by the word `0x33000000`.
-/
import proofs.«107368_j12386685681700_2_alg».proof.Proof.Gen.KernelIdeal.Skeleton
import proofs.«107368_j12386685681700_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.StepValue

open Cert.KernelIdeal Cert.KernelIdeal.Gen Cert.Wbce

/-- The sum down the rows of a 16384 × 32 tile, at class `b`. -/
theorem colsum_apply (v : FVec Ideal S16384x32 .f32) (h : S16384x32.Reduces [0] S32) (hφ : FKind.Formats .f32)
    (hacc : (0x00000000#32 : BitVec 32) = FKind.add.neutral .f32 hφ) (b : Fin 32) :
    multiReduction .add [0] S32 v 0x00000000#32 h hφ hacc (ix1 b) = ∑ r : Fin 16384, v (ix2 r b) :=
  (Ideal.multiReduction_add_single v 0x00000000#32 h hφ hacc (ix1 b)).trans
    (Finset.sum_congr rfl fun r _ => congrArg v (funext fun a => by
      match a with
      | ⟨0, _⟩ => rfl
      | ⟨1, _⟩ => rfl))

/-- The sum across the 32 classes of a 1 × 32 row. -/
theorem rowsum_apply (v : FVec Ideal S1x32 .f32) (h : S1x32.Reduces [1] S1) (hφ : FKind.Formats .f32)
    (hacc : (0x00000000#32 : BitVec 32) = FKind.add.neutral .f32 hφ) (u : Fin 1) :
    multiReduction .add [1] S1 v 0x00000000#32 h hφ hacc (ix1 u) = ∑ b : Fin 32, v (ix2 u b) :=
  (Ideal.multiReduction_add_single v 0x00000000#32 h hφ hacc (ix1 u)).trans
    (Finset.sum_congr rfl fun b _ => congrArg v (funext fun a => by
      match a with
      | ⟨0, _⟩ => rfl
      | ⟨1, _⟩ => rfl))

/-- One element of the weighted tile is the element's loss under the two weights broadcast to it. -/
theorem elem_apply (x : FVec Ideal S16384x32 .f32) (t : IVec S16384x32 32) (wp wn : FVec Ideal S16384x32 .f32)
    (r : Fin 16384) (b : Fin 32) :
    mulf (select (cmpi .eq t (broadcast S16384x32 1#32)) wp wn)
        (addf (subf (maximumf x (broadcast S16384x32 (Scalar.ofBits (F := Ideal) .f32 0x00000000#32))) (mulf x (sitofp .f32 t)))
          (log1p (exp (subf (broadcast S16384x32 (Scalar.ofBits (F := Ideal) .f32 0x00000000#32)) (absf x))))) (ix2 r b)
      = loss (wp (ix2 r b)) (wn (ix2 r b)) (x (ix2 r b)) (t (ix2 r b)) := by
  show Scalar.select (IntOp.cmpi .eq (t (ix2 r b)) 1#32) (wp (ix2 r b)) (wn (ix2 r b))
      * ((max (x (ix2 r b)) (Ideal.ofBits .f32 0x00000000#32) - x (ix2 r b) * (((t (ix2 r b)).toInt : ℝ) : EReal))
        + Ideal.log1p (Ideal.exp (Ideal.ofBits .f32 0x00000000#32 - max (x (ix2 r b)) (-(x (ix2 r b)))))) = _
  rw [Ideal.ofBits_zero_f32, zero_sub]
  rfl

/-- A tile's sum of losses, classes outside, rows inside, over the four blocks a grid point is given. -/
def tileOf (x : Vec Ideal S16384x32 .f32) (t : Vec Ideal S16384x32 .i32) (wp wn : Vec Ideal S1x32 .f32) : EReal :=
  ∑ b : Fin 32, ∑ r : Fin 16384, loss (wp (ix2 (0 : Fin 1) b)) (wn (ix2 (0 : Fin 1) b)) (x (ix2 r b)) (t (ix2 r b))

/-- The step: the previous total plus the tile's sum. -/
theorem step_apply (x : Vec Ideal S16384x32 .f32) (t : Vec Ideal S16384x32 .i32) (wp wn : Vec Ideal S1x32 .f32)
    (prev : Vec Ideal S1x1 .f32) :
    k0_pay3 (F := Ideal) x t wp wn prev (ix2 (0 : Fin 1) (0 : Fin 1))
      = prev (ix2 (0 : Fin 1) (0 : Fin 1)) + tileOf x t wp wn := by
  unfold tileOf k0_pay3
  simp only [shapeCast_self]
  show prev (ix2 (0 : Fin 1) (0 : Fin 1)) + _ = _
  refine congrArg (prev (ix2 (0 : Fin 1) (0 : Fin 1)) + ·) ?_
  refine (shapeCast_a_1a_apply _ _ (0 : Fin 1) (0 : Fin 1)).trans ?_
  refine (rowsum_apply _ _ _ _ (0 : Fin 1)).trans ?_
  refine Finset.sum_congr rfl fun b _ => ?_
  refine (shapeCast_a_1a_apply _ _ (0 : Fin 1) b).trans ?_
  refine (colsum_apply _ _ _ _ b).trans ?_
  refine Finset.sum_congr rfl fun r _ => ?_
  refine (elem_apply x t _ _ r b).trans ?_
  rw [broadcastTo_1b_ab_apply, broadcastTo_1b_ab_apply]

/-- The total the first point starts from is zero. -/
theorem zero_apply : k0_pay2 (F := Ideal) (ix2 (0 : Fin 1) (0 : Fin 1)) = 0 := by
  unfold k0_pay2
  simp only [shapeCast_self]
  exact Ideal.ofBits_zero_f32

/-- The last point's scaling multiplies the total by the word `0x33000000`. -/
theorem scaled_apply (v : Vec Ideal S1x1 .f32) :
    k0_pay1 (F := Ideal) v (ix2 (0 : Fin 1) (0 : Fin 1))
      = v (ix2 (0 : Fin 1) (0 : Fin 1)) * Ideal.ofBits .f32 0x33000000#32 := rfl

end Cert.KernelIdeal.StepValue

end
-- ==== Proof.Accum.lean ====
/-
  The running total, point by point, over the extended reals.

  After grid point `n` the scratch cell holds the sum of the tile sums of the points `0, …, n`: the first point starts
  from zero, every later point adds its own tile sum to what the point before left (an induction on the point). After
  the last point the output block holds that sum over all the points, scaled.
-/
import proofs.«107368_j12386685681700_2_alg».proof.Proof.AccumCases
import proofs.«107368_j12386685681700_2_alg».proof.Proof.StepValue

-- block and window sizes of the full-size arrays are compared by structural recursion on their extents
set_option maxRecDepth 16384

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Wbce Cert.KernelIdeal.StepValue

-- what a point leaves is only ever rewritten by its case equations, never computed
attribute [local irreducible] Cert.KernelIdeal.Gen.outsAt0

variable (m : (ℓ : Loc nD τ sig) → Buf (Elt Ideal) ℓ)

/-- The tile sum of grid point `t`: the sum of losses over the blocks the point is given. -/
def tile (c : Dev nD) (t : Fin cfg0.N) : EReal := tileOf (iblk m c 0 t) (iblk m c 1 t) (iblk m c 2 t) (iblk m c 3 t)

theorem tile_def (c : Dev nD) (t : Fin cfg0.N) : tile m c t = tileOf (iblk m c 0 t) (iblk m c 1 t) (iblk m c 2 t) (iblk m c 3 t) := rfl

-- a tile sum is only ever opened by `tile_def`
attribute [local irreducible] tile

/-- The first point leaves its own tile sum in the scratch cell. -/
theorem scratch_zero (c : Dev nD) (t : Fin cfg0.N) (h0 : t.val % 64 = 0) (h1 : ¬t.val % 64 = 63) :
    (outsAt0 m c t.val t.isLt).2 (ix2 (0 : Fin 1) (0 : Fin 1)) = tile m c t := by
  refine (congrFun (scratch_first m c t h0 h1) _).trans ?_
  refine (step_apply (iblk m c 0 t) (iblk m c 1 t) (iblk m c 2 t) (iblk m c 3 t) (k0_pay2 (F := Ideal))).trans ?_
  rw [zero_apply, zero_add]
  exact (tile_def m c t).symm

/-- Every later point adds its tile sum to what the point before left. -/
theorem scratch_succ (c : Dev nD) (t : Fin cfg0.N) (h0 : ¬t.val % 64 = 0) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + tile m c t := by
  have key : (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
    by_cases h1 : t.val % 64 = 63
    · exact scratch_last m c t h0 h1
    · exact scratch_middle m c t h0 h1
  refine (congrFun key _).trans ?_
  rw [tile_def]
  exact step_apply (iblk m c 0 t) (iblk m c 1 t) (iblk m c 2 t) (iblk m c 3 t) (outsAt0 m c (t.val - 1) (Nat.lt_of_le_of_lt (Nat.sub_le _ _) t.isLt)).2

/-- The last point leaves in the output block the scaling of what it leaves in the scratch cell. -/
theorem output_scaled (c : Dev nD) (t : Fin cfg0.N) (h0 : ¬t.val % 64 = 0) (h1 : t.val % 64 = 63) :
    (outsAt0 m c t.val t.isLt).1 (ix2 (0 : Fin 1) (0 : Fin 1))
      = (outsAt0 m c t.val t.isLt).2 (ix2 (0 : Fin 1) (0 : Fin 1)) * Ideal.ofBits .f32 0x33000000#32 := by
  refine (congrFun (output_last m c t h0 h1) _).trans ?_
  refine (scaled_apply _).trans ?_
  exact congrArg (· * Ideal.ofBits .f32 0x33000000#32) (congrFun (scratch_last m c t h0 h1).symm _)

/-- The tile sum of point number `s` (zero past the grid's end, where there is no point). -/
def tileN (c : Dev nD) (s : ℕ) : EReal := if hs : s < cfg0.N then tile m c ⟨s, hs⟩ else 0

/-- At a number below the grid's size it is that point's tile sum. -/
theorem tileN_of_lt (c : Dev nD) (s : ℕ) (hs : s < cfg0.N) : tileN m c s = tile m c ⟨s, hs⟩ := by
  unfold tileN
  exact dif_pos hs

/-- After point `n` the scratch cell holds the sum of the tile sums of the points `0, …, n`. -/
theorem scratch_eq (c : Dev nD) : ∀ (n : ℕ) (h : n < cfg0.N),
    (outsAt0 m c n h).2 (ix2 (0 : Fin 1) (0 : Fin 1)) = ∑ s ∈ Finset.range (n + 1), tileN m c s
  | 0, h => by
    rw [Finset.sum_range_one]
    refine (scratch_zero m c ⟨0, h⟩ (Nat.zero_mod _) (by show ¬(0 : ℕ) % 64 = 63; decide)).trans ?_
    exact (tileN_of_lt m c 0 h).symm
  | n + 1, h => by
    have hN : cfg0.N = 64 := N_0
    have h0 : ¬(⟨n + 1, h⟩ : Fin cfg0.N).val % 64 = 0 := by
      show ¬(n + 1) % 64 = 0
      omega
    rw [Finset.sum_range_succ, ← scratch_eq c n (Nat.lt_of_succ_lt h)]
    refine (scratch_succ m c ⟨n + 1, h⟩ h0).trans ?_
    exact congrArg ((outsAt0 m c n (Nat.lt_of_succ_lt h)).2 (ix2 (0 : Fin 1) (0 : Fin 1)) + ·) (tileN_of_lt m c (n + 1) h).symm

end Cert.KernelIdeal.Accum

end
-- ==== Proof.Blocks.lean ====
/-
  The blocks a grid point is given, read where they sit in the arrays.

  Grid point `t` is given rows `16384·t, …, 16384·t + 16383` of the logits and of the targets (all 32 classes), and the
  whole of the two 1 × 32 weight rows. The weight rows were written before the region by reshaping the two tables of
  32 words, so entry `(0, b)` of each is the table's word `b`; the logits and targets are as launched.
-/
import proofs.«107368_j12386685681700_2_alg».proof.Proof.Gen.KernelIdeal.Frame
import proofs.«107368_j12386685681700_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.Wbce

variable {F : FTy → Type} [FloatOps F]
variable (m : (ℓ : Loc nD τ sig) → Buf (Elt F) ℓ)

/-- The block index of the logits' window at point `t` is `(t, 0)`, -/
theorem idx0 : ∀ t : Fin cfg0.N, win0_0.index t 0 = t.val ∧ win0_0.index t 1 = 0 :=
  (by decide +kernel : ∀ t : Fin grid0.N, win0_0.index t 0 = t.val ∧ win0_0.index t 1 = 0)
/-- the targets' likewise, -/
theorem idx1 : ∀ t : Fin cfg0.N, win0_1.index t 0 = t.val ∧ win0_1.index t 1 = 0 :=
  (by decide +kernel : ∀ t : Fin grid0.N, win0_1.index t 0 = t.val ∧ win0_1.index t 1 = 0)
/-- and the two weight rows' is `(0, 0)` at every point. -/
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The logits' block at point `t`, at row `r` and class `b`, is the logits at row `16384·t + r`. -/
theorem logits_apply (c : Dev nD) (t : Fin cfg0.N) (r : Fin 16384) (b : Fin 32) (hrow : t.val * 16384 + r.val < 1048576) :
    (iblk m c 0 t : Vec F S16384x32 .f32) (ix2 r b)
      = (m ((c.tc : Thread nD τ).loc main_arg0) : S1048576x32.Idx → F .f32) (ix2 ⟨t.val * 16384 + r.val, hrow⟩ b) := by
  have hi := idx0 t
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 16384 + 1 * r.val = t.val * 16384 + r.val; rw [hi.1]; omega
  | ⟨1, _⟩ => show win0_0.index t 1 * 32 + 1 * b.val = b.val; rw [hi.2]; omega

/-- The targets' block likewise. -/
theorem targets_apply (c : Dev nD) (t : Fin cfg0.N) (r : Fin 16384) (b : Fin 32) (hrow : t.val * 16384 + r.val < 1048576) :
    (iblk m c 1 t : Vec F S16384x32 .i32) (ix2 r b)
      = (m ((c.tc : Thread nD τ).loc main_arg1) : S1048576x32.Idx → BitVec 32) (ix2 ⟨t.val * 16384 + r.val, hrow⟩ b) := by
  have hi := idx1 t
  rw [← V_main_arg1 m c]
  unfold iblk
  rw [View.read_apply]
  show V m c main_arg1 _ = V m c main_arg1 _
  refine congrArg (V m c main_arg1) (funext fun a => Fin.ext ?_)
  match a with
  | ⟨0, _⟩ => show win0_1.index t 0 * 16384 + 1 * r.val = t.val * 16384 + r.val; rw [hi.1]; omega
  | ⟨1, _⟩ => show win0_1.index t 1 * 32 + 1 * b.val = b.val; rw [hi.2]; omega

/-- The first weight row, as the region finds it: the first table reshaped to one row. -/
theorem V_wp (c : Dev nD) :
    (V m c main_v0 : S1x32.Idx → F .f32)
      = shapeCast S1x32 (fun i => FloatOps.ofBits .f32 (lit0 (S32.rowMajor i))) shapeCasts_S32_S1x32 := by
  show StableHlo.after hostOps0 (fun b => m (c, b)) (Proc.devRef .tc main_v0) = _
  after_results
  rfl

/-- The second weight row: the second table reshaped to one row. -/
theorem V_wn (c : Dev nD) :
    (V m c main_v1 : S1x32.Idx → F .f32)
      = shapeCast S1x32 (fun i => FloatOps.ofBits .f32 (lit1 (S32.rowMajor i))) shapeCasts_S32_S1x32 := by
  show StableHlo.after hostOps0 (fun b => m (c, b)) (Proc.devRef .tc main_v1) = _
  after_results
  rfl

/-- A table of 32 words reshaped to one row reads, at `(0, b)`, the table's word `b`. -/
theorem table_apply (lit : Fin 32 → BitVec 32) (b : Fin 32) :
    shapeCast S1x32 (fun i => FloatOps.ofBits (F := F) .f32 (lit (S32.rowMajor i))) shapeCasts_S32_S1x32 (ix2 (0 : Fin 1) b)
      = FloatOps.ofBits .f32 (lit b) := by
  refine (shapeCast_a_1a_apply _ _ (0 : Fin 1) b).trans ?_
  exact congrArg (fun k => FloatOps.ofBits (F := F) .f32 (lit k)) (Fin.ext (Shape.rowMajor_val_one (ix1 b)))

/-- The first weight row's block at any point, at class `b`, is the first table's word `b`. -/
theorem wp_apply (c : Dev nD) (t : Fin cfg0.N) (b : Fin 32) :
    (iblk m c 2 t : Vec F S1x32 .f32) (ix2 (0 : Fin 1) b) = FloatOps.ofBits .f32 (lit0 b) := by
  have hi := idx2 t
  refine Eq.trans ?_ (table_apply (F := F) lit0 b)
  rw [← V_wp m c]
  unfold iblk
  rw [View.read_apply]
  show V m c main_v0 _ = V m c main_v0 _
  refine congrArg (V m c main_v0) (funext fun a => Fin.ext ?_)
  match a with
  | ⟨0, _⟩ => show win0_2.index t 0 * 1 + 1 * 0 = 0; rw [hi.1]
  | ⟨1, _⟩ => show win0_2.index t 1 * 32 + 1 * b.val = b.val; rw [hi.2]; omega

/-- The second weight row's block likewise. -/
theorem wn_apply (c : Dev nD) (t : Fin cfg0.N) (b : Fin 32) :
    (iblk m c 3 t : Vec F S1x32 .f32) (ix2 (0 : Fin 1) b) = FloatOps.ofBits .f32 (lit1 b) := by
  have hi := idx3 t
  refine Eq.trans ?_ (table_apply (F := F) lit1 b)
  rw [← V_wn m c]
  unfold iblk
  rw [View.read_apply]
  show V m c main_v1 _ = V m c main_v1 _
  refine congrArg (V m c main_v1) (funext fun a => Fin.ext ?_)
  match a with
  | ⟨0, _⟩ => show win0_3.index t 0 * 1 + 1 * 0 = 0; rw [hi.1]
  | ⟨1, _⟩ => show win0_3.index t 1 * 32 + 1 * b.val = b.val; rw [hi.2]; omega

end Cert.KernelIdeal.Blocks

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.SumBridge.lean ====
/-
  Two facts that join the two programs' spellings of the mean loss, both about the extended reals only.

  First, the order of summation. The specification sums rows outermost and classes inside. A computation that walks the
  1048576 rows in 64 consecutive tiles of 16384 rows, and keeps one running sum per class, adds the same terms in the
  order: tile, class, row within the tile. Cutting the row sum into consecutive blocks and exchanging the two inner
  sums re-brackets and re-orders a finite sum, which only asks addition to be commutative and associative — true of the
  extended reals at the infinities too, so no finiteness is assumed of any term.

  Second, the scale. The word `0x4C000000` is the float `2²⁵` and the word `0x33000000` the float `2⁻²⁵`, both exact;
  dividing by a real number that is not zero is multiplying by its reciprocal for EVERY extended real, the infinities
  included, so multiplying by the second constant is dividing by the first.
-/
import proofs.«107368_j12386685681700_2_alg».proof.Proof.Spec
import proofs.«107368_j12386685681700_2_alg».proof.Proof.LibBlockedSum

noncomputable section

open scoped BigOperators

namespace Cert.Wbce

open Idealize.ShloMosaic Idealize.ShloMosaic.ValueIdx

/-- The total loss, summed tile by tile: for each of the 64 tiles and each class, the sum over the tile's 16384 rows.
    The 1048576 rows are the 64 · 16384 indices of 64 consecutive blocks, row `r` of block `s` being `rowOf s r`; inside a
    block the sum over rows and the sum over classes are exchanged. -/
theorem total_eq_tiles (wp wn : Fin 32 → EReal) (x : SArr.Idx → EReal) (t : SArr.Idx → BitVec 32) :
    total wp wn x t
      = ∑ s : Fin 64, ∑ b : Fin 32, ∑ r : Fin 16384,
          loss (wp b) (wn b) (x (ix2 (rowOf s r) b)) (t (ix2 (rowOf s r) b)) := by
  unfold total
  refine (BlockedSum.sum_eq_sum_blocks 64 16384
    (fun a : Fin 1048576 => ∑ b : Fin 32, loss (wp b) (wn b) (x (ix2 a b)) (t (ix2 a b)))).trans ?_
  refine Finset.sum_congr rfl fun s _ => ?_
  exact Finset.sum_comm

/-- The word `0x4C000000` denotes `2²⁵ = 33554432`: exponent field 152, significand field zero. -/
theorem ofBits_two_pow_25 : Ideal.ofBits .f32 0x4C000000#32 = ((33554432 : ℝ) : EReal) := by
  simp [Ideal.ofBits, Ideal.ieee, -EReal.coe_mul]; norm_num

/-- The word `0x33000000` denotes `2⁻²⁵ = 1 / 33554432`: exponent field 102, significand field zero. -/
theorem ofBits_two_pow_neg_25 : Ideal.ofBits .f32 0x33000000#32 = (((1 : ℝ) / 33554432 : ℝ) : EReal) := by
  simp [Ideal.ofBits, Ideal.ieee, -EReal.coe_mul]; norm_num

/-- Multiplying by `2⁻²⁵` is dividing by `2²⁵`, for every extended real. -/
theorem scale_eq (v : EReal) :
    v * Ideal.ofBits .f32 0x33000000#32 = Ideal.div v (Ideal.ofBits .f32 0x4C000000#32) := by
  rw [ofBits_two_pow_25, ofBits_two_pow_neg_25, Ideal.div_coe (by norm_num)]

end Cert.Wbce

end
-- ==== Proof.KValue.lean ====
/-
  The kernel's result, as one expression of its two argument arrays.

  The output window's one block is the whole 1 × 1 result array and is written back once, after the last grid point,
  so the array ends holding what the last point stored: the sum of all 64 tile sums, scaled by 2⁻²⁵. The one host
  operation after the region reshapes that array to a scalar. Every tile sum, read where its blocks sit in the
  arrays, is the sum of losses over rows `16384·s, …, 16384·s + 16383` and all classes under the two tables'
  weights; the 64 tiles together are every row, and scaling by 2⁻²⁵ is dividing by 2²⁵. So the scalar is the total
  loss divided by the number of elements.
-/
import proofs.«107368_j12386685681700_2_alg».proof.Proof.Accum
import proofs.«107368_j12386685681700_2_alg».proof.Proof.Blocks
import proofs.«107368_j12386685681700_2_alg».proof.Proof.SumBridge
import Idealize.ShloMosaic.Lib.Pipeline.Value
import Idealize.ShloMosaic.Lib.StableHlo.Run
import Idealize.ShloMosaic.Lib.Tactic

-- block and window sizes of the full-size arrays are compared by structural recursion on their extents
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Wbce

-- what a point leaves is only ever rewritten by its case equations, never computed
attribute [local irreducible] Cert.KernelIdeal.Gen.outsAt0

section AnyInstance

variable {F : FTy → Type} [FloatOps F]
variable (m : (ℓ : Loc nD τ sig) → Buf (Elt F) ℓ) (ρ : Dev nD → PrngReg)

theorem h63 : 63 < cfg0.N := by rw [show cfg0.N = 64 from N_0]; decide

/-- The last grid point. -/
abbrev tLast : Fin cfg0.N := ⟨63, h63⟩

/-- What the last point leaves in the output block, as contents of the result array (its one block is the array). -/
abbrev outArr (c : Dev nD) : Buf (Elt F) ((c : Thread nD τ).loc main_v2) := (outsAt0 m c 63 h63).1

/-- The one write-back, after the last point, writes it: block (0, 0) of the 1 × 1 array is the array. -/
theorem flushed_eq (c : Dev nD) (t : Fin cfg0.N) (hf : (cfg0.win 4).flush t = true) :
    (dats m 0 c).flushed 4 t = ((cfg0.win 4).blk t).view.read (Elt F) (outArr m c) := by
  have hN : cfg0.N = 64 := N_0
  have ht : t.val = 63 := by have := (flush0_4 t).mp hf; have := t.isLt; omega
  obtain rfl : t = tLast := Fin.ext ht
  show (cfg0.win 4).cut (grid0.coords tLast) ((dats m 0 c).after 4 tLast) = _
  rw [after0_4]
  have hz' : (fun a => win0_4.index tLast a * main_v2.ty.shape.size a) = fun _ => 0 :=
    funext fun a => by fin_cases a <;> decide +kernel
  exact (Memref.read_access_unit_zero (Elt F) main_v2 hz' (fun a => by rw [congrFun hz' a]; simp) (outArr m c)).symm

/-- So the result array ends holding it. -/
theorem final_out (c : Dev nD) : (dats m 0 c).arrAt 4 cfg0.N = outArr m c :=
  (dats m 0 c).arrAt_eq_of_cover 4 (outArr m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-- The host operation after the region reshapes the result array to a scalar. -/
theorem tail_eq (c : Dev nD) :
    Pipeline.afterTail₀ cfgs (dats m) 0 (V0 m) [hostOps1] c main_v3
      = shapeCast S_ (outArr m c) shapeCasts_S1x1_S_ := by
  have e : Pipeline.withArrays (cfgs 0).spec c (V0 m c) (fun w => (dats m 0 c).arrAt w (cfgs 0).N) (Proc.tc.devRef main_v2)
      = outArr m c :=
    (Pipeline.withArrays_arr spec0 launch0.win.arr_inj c _ _ 4).trans (final_out m c)
  unfold Pipeline.afterTail₀
  show StableHlo.after hostOps1 _ (Proc.devRef .tc main_v3) = _
  after_results
  rw [e]
  rfl

/-- A 1 × 1 array reshaped to a scalar reads, at the scalar's one index, the array's one entry. -/
theorem scalar_apply (v : S1x1.Idx → F .f32) (j : S_.Idx) :
    shapeCast S_ v shapeCasts_S1x1_S_ j = v (ix2 (0 : Fin 1) (0 : Fin 1)) := by
  refine shapeCast_apply v _ j (ix2 (0 : Fin 1) (0 : Fin 1)) ?_
  have h1 : (S1x1.rowMajor (ix2 (0 : Fin 1) (0 : Fin 1))).val < 1 := (S1x1.rowMajor _).isLt
  have h2 : (S_.rowMajor j).val < 1 := (S_.rowMajor j).isLt
  omega

end AnyInstance

variable (m : (ℓ : Loc nD τ sig) → Buf (Elt Ideal) ℓ) (ρ : Dev nD → PrngReg)

/-- The weight of class `b` where the target is 1, and where it is not. -/
abbrev wP : Fin 32 → EReal := fun b => Ideal.ofBits .f32 (lit0 b)
abbrev wN : Fin 32 → EReal := fun b => Ideal.ofBits .f32 (lit1 b)

/-- The tile sum of the point with number `s` is the sum of losses over rows `16384·s, …` of the arrays. -/
theorem tile_eq (c : Dev nD) (t : Fin cfg0.N) (s : Fin 64) (hts : t.val = s.val) :
    Accum.tile m c t
      = ∑ b : Fin 32, ∑ r : Fin 16384, loss (wP b) (wN b)
          ((m ((c.tc : Thread nD τ).loc main_arg0) : S1048576x32.Idx → EReal) (ix2 (rowOf s r) b))
          ((m ((c.tc : Thread nD τ).loc main_arg1) : S1048576x32.Idx → BitVec 32) (ix2 (rowOf s r) b)) := by
  have hrow : ∀ r : Fin 16384, t.val * 16384 + r.val < 1048576 := fun r => by
    have := s.isLt; have := r.isLt; omega
  have erow : ∀ r : Fin 16384, (⟨t.val * 16384 + r.val, hrow r⟩ : Fin 1048576) = rowOf s r := fun r =>
    Fin.ext (by show t.val * 16384 + r.val = s.val * 16384 + r.val; rw [hts])
  rw [Accum.tile_def]
  unfold StepValue.tileOf
  refine Finset.sum_congr rfl fun b _ => Finset.sum_congr rfl fun r _ => ?_
  refine (congr (congr (congr (congrArg loss (Blocks.wp_apply m c t b)) (Blocks.wn_apply m c t b))
    (Blocks.logits_apply m c t r b (hrow r))) (Blocks.targets_apply m c t r b (hrow r))).trans ?_
  rw [erow r]
  rfl

/-- The kernel's result, as contents of its result buffer: the total loss divided by 2²⁵. -/
def value (c : Dev nD) : Buf (Elt Ideal) ((c.tc : Thread nD τ).loc main_v3) :=
  fun _ => Ideal.div (total wP wN (m ((c.tc : Thread nD τ).loc main_arg0)) (m ((c.tc : Thread nD τ).loc main_arg1))) (Ideal.ofBits .f32 0x4C000000#32)

/-- The result array's one entry is that quotient. -/
theorem out_eq (c : Dev nD) :
    outArr m c (ix2 (0 : Fin 1) (0 : Fin 1))
      = Ideal.div (total wP wN (m ((c.tc : Thread nD τ).loc main_arg0)) (m ((c.tc : Thread nD τ).loc main_arg1))) (Ideal.ofBits .f32 0x4C000000#32) := by
  have hN : cfg0.N = 64 := N_0
  refine (Accum.output_scaled m c tLast (by show ¬(63 : ℕ) % 64 = 0; decide) rfl).trans ?_
  rw [← scale_eq]
  refine congrArg (· * Ideal.ofBits .f32 0x33000000#32) ?_
  refine (Accum.scratch_eq m c 63 h63).trans ?_
  rw [total_eq_tiles, Finset.sum_range]
  show ∑ s : Fin 64, Accum.tileN m c s.val = _
  refine Finset.sum_congr rfl fun s _ => ?_
  have hs : s.val < cfg0.N := by rw [hN]; exact s.isLt
  rw [Accum.tileN_of_lt m c s.val hs]
  exact tile_eq m c ⟨s.val, hs⟩ s rfl

/-- Every weakly fair execution of the kernel's program ends with its result at that quotient and its arguments
    unchanged. -/
theorem run : θ_run defs (onTc (τ := τ) (main (F := Ideal))) ⟨m, fun _ => 0, ρ⟩ fun r => ∀ c : Dev nD,
      r.2.mem ((c.tc : Thread nD τ).loc main_v3) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (fun w => by fin_cases w <;> decide))).trans
        ((tail_eq m c).trans (funext fun j => (scalar_apply (F := Ideal) (outArr m c) j).trans (out_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefRun.lean ====
/-
  The reference program's run, read back as one pure term.

  The reference is a straight line of host operations: the two class-weight tables, the target compared with one and
  the weight it selects (through the module-local selection function, whose three operations run at the call), the
  element's loss `max(x, 0) − x·t + log(1 + e^{−|x|})`, the product, the sum over both axes from zero, and the division
  by the number of elements. This module lists those operations in order, shows @main to be that list, and reads off
  what the result buffer holds once they have run: the operations composed, as one term of the two argument arrays,
  the arguments themselves unchanged.
-/
import proofs.«107368_j12386685681700_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call unfolded: the selection function's two broadcasts and its select run at the
    call site, into the call's own buffers. -/
abbrev ops : List (HloOp τ sig (Elt F)) :=
  [ nullary main_cst (fun i => FloatOps.ofBits .f32 (lit0 (S32.rowMajor i))),
    nullary main_cst_0 (fun i => FloatOps.ofBits .f32 (lit1 (S32.rowMajor i))),
    unary main_arg1 main_v0 (sitofp .f32 : (⟨S1048576x32, .i32⟩ : BufTy).Contents (Elt F) → (⟨S1048576x32, .f32⟩ : BufTy).Contents (Elt F)),
    nullary main_c (constantI S_ 32 1#32),
    unary main_c main_v1 (broadcastInDim S1048576x32 ![] bcast_S_S1048576x32 : (⟨S_, .i32⟩ : BufTy).Contents (Elt F) → (⟨S1048576x32, .i32⟩ : BufTy).Contents (Elt F)),
    binary main_arg1 main_v1 main_v2 (cmpi .eq : (⟨S1048576x32, .i32⟩ : BufTy).Contents (Elt F) → (⟨S1048576x32, .i32⟩ : BufTy).Contents (Elt F) → (⟨S1048576x32, .i1⟩ : BufTy).Contents (Elt F)),
    unary main_cst main_v3 (broadcastInDim S1x32 ![1] bcast_S32_S1x32_1 : (⟨S32, .f32⟩ : BufTy).Contents (Elt F) → (⟨S1x32, .f32⟩ : BufTy).Contents (Elt F)),
    unary main_cst_0 main_v4 (broadcastInDim S1x32 ![1] bcast_S32_S1x32_1 : (⟨S32, .f32⟩ : BufTy).Contents (Elt F) → (⟨S1x32, .f32⟩ : BufTy).Contents (Elt F)),
    TRef.unary (.of main_v3 : TRef sig ⟨S1x32, .f32⟩) main_call0.v0 (broadcastInDim S1048576x32 ![0, 1] bcast_S1x32_S1048576x32_0_1),
    TRef.unary (.of main_v4 : TRef sig ⟨S1x32, .f32⟩) main_call0.v1 (broadcastInDim S1048576x32 ![0, 1] bcast_S1x32_S1048576x32_0_1),
    TRef.ternary (.of main_v2 : TRef sig ⟨S1048576x32, .i1⟩) main_call0.v0 main_call0.v1 main_call0.v2 select,
    nullary main_cst_1 (constant S_ .f32 0x00000000#32),
    unary main_cst_1 main_v6 (broadcastInDim S1048576x32 ![] bcast_S_S1048576x32 : (⟨S_, .f32⟩ : BufTy).Contents (Elt F) → (⟨S1048576x32, .f32⟩ : BufTy).Contents (Elt F)),
    binary main_arg0 main_v6 main_v7 (maximumf : (⟨S1048576x32, .f32⟩ : BufTy).Contents (Elt F) → (⟨S1048576x32, .f32⟩ : BufTy).Contents (Elt F) → (⟨S1048576x32, .f32⟩ : BufTy).Contents (Elt F)),
    binary main_arg0 main_v0 main_v8 (mulf : (⟨S1048576x32, .f32⟩ : BufTy).Contents (Elt F) → (⟨S1048576x32, .f32⟩ : BufTy).Contents (Elt F) → (⟨S1048576x32, .f32⟩ : BufTy).Contents (Elt F)),
    binary main_v7 main_v8 main_v9 (subf : (⟨S1048576x32, .f32⟩ : BufTy).Contents (Elt F) → (⟨S1048576x32, .f32⟩ : BufTy).Contents (Elt F) → (⟨S1048576x32, .f32⟩ : BufTy).Contents (Elt F)),
    unary main_arg0 main_v10 (Host.absf : (⟨S1048576x32, .f32⟩ : BufTy).Contents (Elt F) → (⟨S1048576x32, .f32⟩ : BufTy).Contents (Elt F)),
    unary main_v10 main_v11 (Host.negf : (⟨S1048576x32, .f32⟩ : BufTy).Contents (Elt F) → (⟨S1048576x32, .f32⟩ : BufTy).Contents (Elt F)),
    unary main_v11 main_v12 (Host.exp : (⟨S1048576x32, .f32⟩ : BufTy).Contents (Elt F) → (⟨S1048576x32, .f32⟩ : BufTy).Contents (Elt F)),
    unary main_v12 main_v13 (Host.log1p : (⟨S1048576x32, .f32⟩ : BufTy).Contents (Elt F) → (⟨S1048576x32, .f32⟩ : BufTy).Contents (Elt F)),
    binary main_v9 main_v13 main_v14 (addf : (⟨S1048576x32, .f32⟩ : BufTy).Contents (Elt F) → (⟨S1048576x32, .f32⟩ : BufTy).Contents (Elt F) → (⟨S1048576x32, .f32⟩ : BufTy).Contents (Elt F)),
    binary main_v5 main_v14 main_v15 (mulf : (⟨S1048576x32, .f32⟩ : BufTy).Contents (Elt F) → (⟨S1048576x32, .f32⟩ : BufTy).Contents (Elt F) → (⟨S1048576x32, .f32⟩ : BufTy).Contents (Elt F)),
    nullary main_cst_2 (constant S_ .f32 0x00000000#32),
    binary main_v15 main_cst_2 main_v16 ((fun x v => Host.reduceAdd x v reducesTo_S1048576x32_S_d0_1 h_S_) : (⟨S1048576x32, .f32⟩ : BufTy).Contents (Elt F) → (⟨S_, .f32⟩ : BufTy).Contents (Elt F) → (⟨S_, .f32⟩ : BufTy).Contents (Elt F)),
    nullary main_cst_3 (constant S_ .f32 0x4C000000#32),
    binary main_v16 main_cst_3 main_v17 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the selection function's definition unfolded at its call, both sides are one chain of
    host steps once the sequencing is reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub ..,
    unary_bufs_sub .., unary_bufs_sub .., unary_bufs_sub .., unary_bufs_sub .., ternary_bufs_sub ..,
    nullary_bufs_sub .., unary_bufs_sub .., binary_bufs_sub .., binary_bufs_sub .., binary_bufs_sub ..,
    unary_bufs_sub .., unary_bufs_sub .., unary_bufs_sub .., unary_bufs_sub .., binary_bufs_sub .., binary_bufs_sub ..,
    nullary_bufs_sub .., binary_bufs_sub .., nullary_bufs_sub .., binary_bufs_sub ..⟩

/-- The reference's result as one pure term of its two argument arrays: the operations composed. The weight the target
    selects (the first table where the target is one, the second elsewhere, each table read along the class axis), times
    `max(x, 0) − x·t + log(1 + e^{−|x|})`, summed over both axes from zero, divided by `2²⁵`. -/
def result (x : FVec F S1048576x32 .f32) (t : IVec S1048576x32 32) : FVec F S_ .f32 :=
  Host.divf
    (Host.reduceAdd
      (mulf
        (select (cmpi .eq t (broadcastInDim S1048576x32 ![] bcast_S_S1048576x32 (constantI S_ 32 1#32)))
          (broadcastInDim S1048576x32 ![0, 1] bcast_S1x32_S1048576x32_0_1
            (broadcastInDim S1x32 ![1] bcast_S32_S1x32_1 (fun i => FloatOps.ofBits .f32 (lit0 (S32.rowMajor i)))))
          (broadcastInDim S1048576x32 ![0, 1] bcast_S1x32_S1048576x32_0_1
            (broadcastInDim S1x32 ![1] bcast_S32_S1x32_1 (fun i => FloatOps.ofBits .f32 (lit1 (S32.rowMajor i))))))
        (addf
          (subf (maximumf x (broadcastInDim S1048576x32 ![] bcast_S_S1048576x32 (constant S_ .f32 0x00000000#32)))
            (mulf x (sitofp .f32 t)))
          (Host.log1p (Host.exp (Host.negf (Host.absf x))))))
      (constant S_ .f32 0x00000000#32) reducesTo_S1048576x32_S_d0_1 h_S_)
    (constant S_ .f32 0x4C000000#32)

attribute [local irreducible] Host.reduceAdd in
/-- On the device, for any float values, from any memory with zero counters: every weakly fair execution of @main
    terminates with the result buffer at `result` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
/-
  The reference's result, at the ideal values, is the shared specification: the sum of every element's weighted loss,
  divided by the number of elements.

  At the extended reals each host operation is its textbook one, element by element, so the array the reference sums
  is, at row `a` and class `b`, the weight the target selects times `max(x, 0) − x·t + log(1 + e^{−|x|})`: the two
  weight tables are read along the class axis (a table of 32 entries broadcast first to one row, then down all rows, reads
  entry `b` at `(a, b)`), the broadcast scalar constants read the scalar, and the zero word is the real zero. The host's
  reduction over both axes from the initial value zero is then zero plus the sum over every index, which is the double
  sum over rows and classes; the last operation divides it by the constant `2²⁵`.
-/
import proofs.«107368_j12386685681700_2_alg».proof.Proof.RefRun
import proofs.«107368_j12386685681700_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- A table of 32 words, made a rank-1 array in row-major order, broadcast to one row and then down every row, reads
    at row `a` and class `b` the table's entry `b`: the second broadcast reads its one-row operand at `(0, b)`, the
    first reads the rank-1 array at `(b)`, whose row-major position is `b`. -/
theorem weight_apply (lit : Fin 32 → BitVec 32) (a : Fin 1048576) (b : Fin 32) :
    broadcastInDim S1048576x32 ![0, 1] bcast_S1x32_S1048576x32_0_1
        (broadcastInDim S1x32 ![1] bcast_S32_S1x32_1 (fun i => FloatOps.ofBits (F := Ideal) .f32 (lit (S32.rowMajor i))))
        (ix2 a b)
      = Ideal.ofBits .f32 (lit b) := by
  refine (broadcastInDim_apply _ _ _ (ix2 a b) (ix2 (0 : Fin 1) b)
    (fun d => match d with | ⟨0, _⟩ => rfl | ⟨1, _⟩ => rfl)).trans ?_
  refine (broadcastInDim_apply _ _ _ (ix2 (0 : Fin 1) b) (ix1 b)
    (fun d => match d with | ⟨0, _⟩ => rfl)).trans ?_
  exact congrArg (fun k => Ideal.ofBits .f32 (lit k)) (Fin.ext (Shape.rowMajor_val_one (ix1 b)))

/-- One element of the array the reference sums is that element's loss under the class's two weights. -/
theorem elem_eq (x : FVec Ideal S1048576x32 .f32) (t : IVec S1048576x32 32) (a : Fin 1048576) (b : Fin 32) :
    mulf
        (select (cmpi .eq t (broadcastInDim S1048576x32 ![] bcast_S_S1048576x32 (constantI S_ 32 1#32)))
          (broadcastInDim S1048576x32 ![0, 1] bcast_S1x32_S1048576x32_0_1
            (broadcastInDim S1x32 ![1] bcast_S32_S1x32_1 (fun i => FloatOps.ofBits (F := Ideal) .f32 (lit0 (S32.rowMajor i)))))
          (broadcastInDim S1048576x32 ![0, 1] bcast_S1x32_S1048576x32_0_1
            (broadcastInDim S1x32 ![1] bcast_S32_S1x32_1 (fun i => FloatOps.ofBits (F := Ideal) .f32 (lit1 (S32.rowMajor i))))))
        (addf
          (subf (maximumf x (broadcastInDim S1048576x32 ![] bcast_S_S1048576x32 (constant (F := Ideal) S_ .f32 0x00000000#32)))
            (mulf x (sitofp .f32 t)))
          (Host.log1p (Host.exp (Host.negf (Host.absf x)))))
        (ix2 a b)
      = Cert.Wbce.loss (Ideal.ofBits .f32 (lit0 b)) (Ideal.ofBits .f32 (lit1 b)) (x (ix2 a b)) (t (ix2 a b)) := by
  show Scalar.select (IntOp.cmpi .eq (t (ix2 a b)) 1#32)
        (broadcastInDim S1048576x32 ![0, 1] bcast_S1x32_S1048576x32_0_1
          (broadcastInDim S1x32 ![1] bcast_S32_S1x32_1 (fun i => FloatOps.ofBits (F := Ideal) .f32 (lit0 (S32.rowMajor i))))
          (ix2 a b))
        (broadcastInDim S1048576x32 ![0, 1] bcast_S1x32_S1048576x32_0_1
          (broadcastInDim S1x32 ![1] bcast_S32_S1x32_1 (fun i => FloatOps.ofBits (F := Ideal) .f32 (lit1 (S32.rowMajor i))))
          (ix2 a b))
      * ((max (x (ix2 a b)) (Ideal.ofBits .f32 0x00000000#32) - x (ix2 a b) * (((t (ix2 a b)).toInt : ℝ) : EReal))
          + Ideal.log1p (Ideal.exp (-(max (x (ix2 a b)) (-(x (ix2 a b))))))) = _
  rw [weight_apply lit0 a b, weight_apply lit1 a b, Ideal.ofBits_zero_f32]
  rfl

/-- The reference's result is the total loss divided by `2²⁵`, at its one index. -/
theorem result_eq (x : FVec Ideal S1048576x32 .f32) (t : IVec S1048576x32 32) :
    RefRun.result (F := Ideal) x t
      = fun _ => Ideal.div
          (Cert.Wbce.total (fun b => Ideal.ofBits .f32 (lit0 b)) (fun b => Ideal.ofBits .f32 (lit1 b)) x t)
          (Ideal.ofBits .f32 0x4C000000#32) := by
  funext j
  unfold RefRun.result
  rw [hostDivf_apply, hostReduceAdd_apply, Ideal.hostReduceAdd_total _ (fun b => b.elim0), constant_apply,
    constant_apply, Ideal.ofBits_zero_f32, zero_add, sum_idx2]
  exact congrArg (fun s => Ideal.div s (Ideal.ofBits .f32 0x4C000000#32))
    (Finset.sum_congr rfl fun a _ => Finset.sum_congr rfl fun b _ => elem_eq x t a b)

end Cert.ReferenceIdeal.RefValue

end
-- ==== Proof.lean ====
/-
  The kernel and the reference compute the same number.

  Both programs take 1048576 × 32 logits `x` and integer targets `t` and return the mean, over all 2²⁵ elements, of
  the weighted binary cross-entropy with logits: the class weight the target selects (one of two tables of 32 weights,
  the same two tables in both programs) times `max(x, 0) − x·t + log(1 + e^{−|x|})`.

  The reference forms the whole array of losses, sums it over both axes from zero, and divides by 2²⁵. The kernel
  visits the rows in 64 tiles of 16384; at each tile it sums the losses down the rows and then across the classes and
  adds the tile's sum to a running total that starts at zero, and after the last tile it multiplies the total by
  2⁻²⁵. Over the extended reals addition is commutative and associative, so the 64 tile sums add up to the sum over
  every element in whatever order, and multiplying by 2⁻²⁵ is dividing by 2²⁵ for every extended real: the two
  results are one expression of the arguments. No finiteness of the inputs is used.

  The idealized kernel is the kernel's own text read at the ideal instance (the ideal pass rewrote nothing), and each
  program runs to completion leaving its arguments as they were.
-/
import proofs.«107368_j12386685681700_2_alg».proof.Defs
import proofs.«107368_j12386685681700_2_alg».proof.Proof.Gen.Kernel
import proofs.«107368_j12386685681700_2_alg».proof.Proof.Gen.Kernel.Skeleton
import proofs.«107368_j12386685681700_2_alg».proof.Proof.Gen.Kernel.Launch
import proofs.«107368_j12386685681700_2_alg».proof.Proof.Gen.Kernel.Points
import proofs.«107368_j12386685681700_2_alg».proof.Proof.Gen.Kernel.Frame
import proofs.«107368_j12386685681700_2_alg».proof.Proof.Gen.KernelIdeal
import proofs.«107368_j12386685681700_2_alg».proof.Proof.Gen.KernelIdeal.Skeleton
import proofs.«107368_j12386685681700_2_alg».proof.Proof.Gen.KernelIdeal.Launch
import proofs.«107368_j12386685681700_2_alg».proof.Proof.Gen.KernelIdeal.Points
import proofs.«107368_j12386685681700_2_alg».proof.Proof.Gen.KernelIdeal.Frame
import proofs.«107368_j12386685681700_2_alg».proof.Proof.Gen.ReferenceIdeal
import proofs.«107368_j12386685681700_2_alg».proof.Proof.Gen.Pre_finite_inputs
import proofs.«107368_j12386685681700_2_alg».proof.Proof.KValue
import proofs.«107368_j12386685681700_2_alg».proof.Proof.RefValue
import Idealize.ShloMosaic.Adequacy
import Idealize.ShloMosaic.Init

noncomputable section

namespace Cert.Proof

open Idealize.ShloMosaic Idealize.SL.Sem

/-- The two programs carry the same table of weights for targets equal to 1, -/
theorem lit0_eq : Cert.KernelIdeal.lit0 = Cert.ReferenceIdeal.lit0 := by
  funext i; fin_cases i <;> rfl

/-- and the same table for the other targets. -/
theorem lit1_eq : Cert.KernelIdeal.lit1 = Cert.ReferenceIdeal.lit1 := by
  funext i; fin_cases i <;> rfl

theorem frame_k : Cert.frame_Kernel := fun m ρ _ => Cert.Kernel.Gen.frame m ρ

theorem frame_ki : Cert.frame_KernelIdeal := fun m ρ _ => Cert.KernelIdeal.Gen.frame m ρ

/-- The reference runs to completion with its arguments unchanged: its run, with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation of the kernel. -/
theorem preserves : Cert.preserves_Kernel_KernelIdeal := trivial

/-- Both programs end at the total loss divided by 2²⁵, of arguments that agree. -/
theorem algebraic : Cert.algebraic_KernelIdeal_ReferenceIdeal := by
  intro m ρ m' ρ' _ hagree
  refine ⟨fun c => Cert.KernelIdeal.KValue.value m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2, ← lit0_eq, ← lit1_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
